-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048x768 : Shape := ⟨2, ![2048, 768]⟩
abbrev S768x2048 : Shape := ⟨2, ![768, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048x768 : S_.BroadcastsInDim S2048x768 (![] : Fin 0 → Fin S2048x768.rank)
  reducesTo_S2048x768_S_d0_1 : S2048x768.ReducesTo [0, 1] S_
  bcast_S_S768x2048 : S_.BroadcastsInDim S768x2048 (![] : Fin 0 → Fin S768x2048.rank)
  reducesTo_S768x2048_S_d0_1 : S768x2048.ReducesTo [0, 1] S_

variable [Facts]

def fn_part1 {F : FTy → Type} [FloatOps F] (main_v13 : IVec S_ 1) (main_v16 : IVec S768x2048 1) : IVec S_ 1 :=
  let main_c_5 : IVec S_ 1 := constantI S_ 1 1#1
  let main_v17 : IVec S_ 1 := (fun x v => Host.reduce IntOp.andi x v reducesTo_S768x2048_S_d0_1 h_S_) main_v16 main_c_5
  let main_v18 : IVec S_ 1 := andi main_v13 main_v17
  main_v18

def fn {F : FTy → Type} [FloatOps F] (main_arg0 : FVec F S32768x2048 .f32) (main_arg1 : FVec F S2048x768 .f32) (main_arg2 : FVec F S2048x768 .f32) (main_arg3 : FVec F S768x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_v9 : FVec F S2048x768 .f32 := Host.absf main_arg2
  let main_cst_2 : FVec F S_ .f32 := constant S_ .f32 0x7F800000#32
  let main_v10 : FVec F S2048x768 .f32 := broadcastInDim S2048x768 ![] bcast_S_S2048x768 main_cst_2
  let main_v11 : IVec S2048x768 1 := cmpf .olt main_v9 main_v10
  let main_c_3 : IVec S_ 1 := constantI S_ 1 1#1
  let main_v12 : IVec S_ 1 := (fun x v => Host.reduce IntOp.andi x v reducesTo_S2048x768_S_d0_1 h_S_) main_v11 main_c_3
  let main_v13 : IVec S_ 1 := andi main_v8 main_v12
  let main_v14 : FVec F S768x2048 .f32 := Host.absf main_arg3
  let main_cst_4 : FVec F S_ .f32 := constant S_ .f32 0x7F800000#32
  let main_v15 : FVec F S768x2048 .f32 := broadcastInDim S768x2048 ![] bcast_S_S768x2048 main_cst_4
  let main_v16 : IVec S768x2048 1 := cmpf .olt main_v14 main_v15
  fn_part1 (F := F) main_v13 main_v16
-- ==== Kernel.lean ====
abbrev S32768x2048 : Shape := ⟨2, ![32768, 2048]⟩
abbrev S2048x768 : Shape := ⟨2, ![2048, 768]⟩
abbrev S768x2048 : Shape := ⟨2, ![768, 2048]⟩
abbrev S1024x2048 : Shape := ⟨2, ![1024, 2048]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S2048x768, .f32⟩
  | .hbm, ⟨2, _⟩ => ⟨S2048x768, .f32⟩
  | .hbm, ⟨3, _⟩ => ⟨S768x2048, .f32⟩
  | .hbm, ⟨4, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S2048x768, .f32⟩
  | .local _ .vmem, ⟨3, _⟩ => ⟨S2048x768, .f32⟩
  | .local _ .vmem, ⟨4, _⟩ => ⟨S768x2048, .f32⟩
  | .local _ .vmem, ⟨5, _⟩ => ⟨S1024x2048, .f32⟩
  | .local _ .vmem, ⟨6, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  inb_S2048x768_S2048x768_0_0 : ∀ a, (![0, 0] : Fin 2 → Nat) a + S2048x768.size a ≤ S2048x768.size a
  h_S2048x768 : 0 < S2048x768.numel
  inb_S768x2048_S768x2048_0_0 : ∀ a, (![0, 0] : Fin 2 → Nat) a + S768x2048.size a ≤ S768x2048.size a
  h_S768x2048 : 0 < S768x2048.numel
  dot_S1024x2048_S2048x768_S1024x768_1_0_0_1_n_n_wf : DotDims.WF S1024x2048 S2048x768 S1024x768 [1] [0] [0] [1] [] []
  dot_S1024x768_S768x2048_S1024x2048_1_0_0_1_n_n_wf : DotDims.WF S1024x768 S768x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S2048x768.size a
  hwx0_1 : ∀ i : grid0.Coords, EltTy.bits .f32 = 32 ∨ (Rect.block (s := S2048x768) S2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x768.size a ≤ S2048x768.size a
  hwx0_2 : ∀ i : grid0.Coords, EltTy.bits .f32 = 32 ∨ (Rect.block (s := S2048x768) S2048x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x2048.size a ≤ S768x2048.size a
  hwx0_3 : ∀ i : grid0.Coords, EltTy.bits .f32 = 32 ∨ (Rect.block (s := S768x2048) S768x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S32768x2048.size a
  hwx0_4 : ∀ i : grid0.Coords, EltTy.bits .f32 = 32 ∨ (Rect.block (s := S32768x2048) S1024x2048.size (cc0_transform_4 i) (hinb0_4 i)).WholeWords (EltTy.packing .f32)

variable [Facts₀]

def dot_S1024x2048_S2048x768_S1024x768_1_0_0_1_n_n : DotDims S1024x2048 S2048x768 S1024x768 where
  lhsContracting := [1]
  rhsContracting := [0]
  lhsNonContracting := [0]
  rhsNonContracting := [1]
  lhsBatch := []
  rhsBatch := []
  wf := dot_S1024x2048_S2048x768_S1024x768_1_0_0_1_n_n_wf
def dot_S1024x768_S768x2048_S1024x2048_1_0_0_1_n_n : DotDims S1024x768 S768x2048 S1024x2048 where
  lhsContracting := [1]
  rhsContracting := [0]
  lhsNonContracting := [0]
  rhsNonContracting := [1]
  lhsBatch := []
  rhsBatch := []
  wf := dot_S1024x768_S768x2048_S1024x2048_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S2048x768 : Shape := ⟨2, ![2048, 768]⟩
abbrev S768x2048 : Shape := ⟨2, ![768, 2048]⟩
abbrev S32768x768 : Shape := ⟨2, ![32768, 768]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x768, .f32⟩
  | .hbm, ⟨2, _⟩ => ⟨S2048x768, .f32⟩
  | .hbm, ⟨3, _⟩ => ⟨S768x2048, .f32⟩
  | .hbm, ⟨4, _⟩ => ⟨S32768x768, .f32⟩
  | .hbm, ⟨5, _⟩ => ⟨S32768x768, .f32⟩
  | .hbm, ⟨6, _⟩ => ⟨S32768x768, .f32⟩
  | .hbm, ⟨7, _⟩ => ⟨S32768x768, .f32⟩
  | .hbm, ⟨8, _⟩ => ⟨S_, .f32⟩
  | .hbm, ⟨9, _⟩ => ⟨S32768x768, .f32⟩
  | .hbm, ⟨10, _⟩ => ⟨S32768x768, .f32⟩
  | .hbm, ⟨11, _⟩ => ⟨S_, .f32⟩
  | .hbm, ⟨12, _⟩ => ⟨S32768x768, .f32⟩
  | .hbm, ⟨13, _⟩ => ⟨S32768x768, .f32⟩
  | .hbm, ⟨14, _⟩ => ⟨S32768x768, .f32⟩
  | .hbm, ⟨15, _⟩ => ⟨S32768x768, .f32⟩
  | .hbm, ⟨16, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S32768x768 : S_.BroadcastsInDim S32768x768 (![] : Fin 0 → Fin S32768x768.rank)
  dot_S32768x2048_S2048x768_S32768x768_1_0_0_1_n_n_wf : DotDims.WF S32768x2048 S2048x768 S32768x768 [1] [0] [0] [1] [] []
  dot_S32768x768_S768x2048_S32768x2048_1_0_0_1_n_n_wf : DotDims.WF S32768x768 S768x2048 S32768x2048 [1] [0] [0] [1] [] []

variable [Facts₀]

def dot_S32768x2048_S2048x768_S32768x768_1_0_0_1_n_n : DotDims S32768x2048 S2048x768 S32768x768 where
  lhsContracting := [1]
  rhsContracting := [0]
  lhsNonContracting := [0]
  rhsNonContracting := [1]
  lhsBatch := []
  rhsBatch := []
  wf := dot_S32768x2048_S2048x768_S32768x768_1_0_0_1_n_n_wf
def dot_S32768x768_S768x2048_S32768x2048_1_0_0_1_n_n : DotDims S32768x768 S768x2048 S32768x2048 where
  lhsContracting := [1]
  rhsContracting := [0]
  lhsNonContracting := [0]
  rhsNonContracting := [1]
  lhsBatch := []
  rhsBatch := []
  wf := dot_S32768x768_S768x2048_S32768x2048_1_0_0_1_n_n_wf

class Facts : Prop extends Facts₀ where

variable [Facts]
-- ==== Proof.RowMlp.lean ====
/-
  The gated feed-forward map over the extended reals, one row at a time.

  For a row `xr` of 2048 entries and weight matrices `wg`, `wu` (2048 × 768) and `wd` (768 × 2048):
    g k = ∑ j, xr j · wg (j, k)          (the gate projection)
    u k = ∑ j, xr j · wu (j, k)          (the up projection)
    h k = g k · σ (g k) · u k            (σ the logistic function 1 / (1 + e^(-g)))
    out c = ∑ k, h k · wd (k, c)         (the down projection)
  An output row depends on the input through its own row only, so the map on a 32768 × 2048 array is this row map
  applied to every row, and any block of whole rows of the output is the row map applied to those rows of the input.
-/
import Idealize.ShloMosaic.PureOps.Ideal
import Idealize.ShloMosaic.Lib.ValueIdx

noncomputable section

open scoped BigOperators
open Idealize.ShloMosaic Idealize.ShloMosaic.ValueIdx

namespace Cert.RowMlp

/-- A row times a 2048 × 768 matrix, at column `k`. -/
def proj (xr : Fin 2048 → EReal) (w : (⟨2, ![2048, 768]⟩ : Shape).Idx → EReal) (k : Fin 768) : EReal :=
  ∑ j : Fin 2048, xr j * w (ix2 j k)

/-- The hidden activation at column `k`: gate · σ(gate) · up. -/
def hidden (xr : Fin 2048 → EReal) (wg wu : (⟨2, ![2048, 768]⟩ : Shape).Idx → EReal) (k : Fin 768) : EReal :=
  proj xr wg k * Ideal.logistic (proj xr wg k) * proj xr wu k

/-- The output row at column `c`: the hidden row times the 768 × 2048 matrix. -/
def outRow (xr : Fin 2048 → EReal) (wg wu : (⟨2, ![2048, 768]⟩ : Shape).Idx → EReal)
    (wd : (⟨2, ![768, 2048]⟩ : Shape).Idx → EReal) (c : Fin 2048) : EReal :=
  ∑ k : Fin 768, hidden xr wg wu k * wd (ix2 k c)

/-- The whole map: entry (r, c) of the result is the row map of row `r` at column `c`. -/
def mlp (x : (⟨2, ![32768, 2048]⟩ : Shape).Idx → EReal) (wg wu : (⟨2, ![2048, 768]⟩ : Shape).Idx → EReal)
    (wd : (⟨2, ![768, 2048]⟩ : Shape).Idx → EReal) : (⟨2, ![32768, 2048]⟩ : Shape).Idx → EReal :=
  fun i => outRow (fun j => x (ix2 (i 0) j)) wg wu wd (i 1)

/-- At an index given by its coordinates. -/
theorem mlp_ix2 (x : (⟨2, ![32768, 2048]⟩ : Shape).Idx → EReal) (wg wu : (⟨2, ![2048, 768]⟩ : Shape).Idx → EReal)
    (wd : (⟨2, ![768, 2048]⟩ : Shape).Idx → EReal) (r : Fin 32768) (c : Fin 2048) :
    mlp x wg wu wd (ix2 r c) = outRow (fun j => x (ix2 r j)) wg wu wd c := rfl

/-- The row map depends on the row's entries, the three matrices and the column only. -/
theorem outRow_congr {xr xr' : Fin 2048 → EReal} {wg wg' wu wu' : (⟨2, ![2048, 768]⟩ : Shape).Idx → EReal}
    {wd wd' : (⟨2, ![768, 2048]⟩ : Shape).Idx → EReal} {c c' : Fin 2048}
    (hx : ∀ j, xr j = xr' j) (hg : wg = wg') (hu : wu = wu') (hd : wd = wd') (hc : c = c') :
    outRow xr wg wu wd c = outRow xr' wg' wu' wd' c' := by
  obtain rfl : xr = xr' := funext hx
  subst hg hu hd hc
  rfl

/-- The single-precision word of 1.0 denotes the real number 1. -/
theorem one_f32 : Ideal.ofBits .f32 0x3F800000#32 = 1 := by
  simp [Ideal.ofBits, Ideal.ieee, -EReal.coe_mul]; norm_num

/-- The logistic function spelt with a negation, an exponential, a sum and a quotient. -/
theorem logistic_spelt (g : EReal) : Ideal.div 1 (1 + Ideal.exp (-g)) = Ideal.logistic g := rfl

end Cert.RowMlp

end
-- ==== Proof.BlockMlp.lean ====
/-
  What the kernel body computes from its loaded blocks, read at an index.

  The body multiplies a block of 1024 rows of x by the gate and the up matrices (each product accumulated into
  zero), forms gate · σ(gate) · up entry by entry with σ the logistic function, and multiplies the result by the down
  matrix. A matrix product into a zero accumulator, read at (p, k), is the sum over the contracted coordinate j of
  left (p, j) · right (j, k). So entry (p, q) of the body's result is the row map of row p of the block at column q.
-/
import proofs.«113107_g47691316855583_cont_8to1_c_567_17_alg».proof.Proof.Gen.KernelIdeal.Skeleton
import proofs.«113107_g47691316855583_cont_8to1_c_567_17_alg».proof.Proof.RowMlp
import Idealize.ShloMosaic.Lib.ValueIdx
import Idealize.ShloMosaic.PureOps.Ideal.Laws

noncomputable section

open scoped BigOperators
open Idealize.ShloMosaic Idealize.ShloMosaic.ValueIdx

namespace Cert.KernelIdeal.Block

open Cert.KernelIdeal Cert.KernelIdeal.Gen Cert.RowMlp

/-! ## The operand indices of the two products, coordinate by coordinate -/

theorem lhsA_0 (i : S1024x768.Idx) (q : dot_S1024x2048_S2048x768_S1024x768_1_0_0_1_n_n.contr.Idx) :
    (dot_S1024x2048_S2048x768_S1024x768_1_0_0_1_n_n.lhsIdx i q 0).val = (i 0).val := by
  unfold DotDims.lhsIdx
  rw [dif_neg (show ¬(0 : Fin S1024x2048.rank) ∈ dot_S1024x2048_S2048x768_S1024x768_1_0_0_1_n_n.lhsBatch by decide), dif_pos (show (0 : Fin S1024x2048.rank) ∈ dot_S1024x2048_S2048x768_S1024x768_1_0_0_1_n_n.lhsNonContracting by decide)]
  rfl
theorem lhsA_1 (i : S1024x768.Idx) (q : dot_S1024x2048_S2048x768_S1024x768_1_0_0_1_n_n.contr.Idx) :
    (dot_S1024x2048_S2048x768_S1024x768_1_0_0_1_n_n.lhsIdx i q 1).val = (q ⟨0, by decide⟩).val :=
  dot_S1024x2048_S2048x768_S1024x768_1_0_0_1_n_n.lhsIdx_val_of_single rfl i q
theorem rhsA_0 (i : S1024x768.Idx) (q : dot_S1024x2048_S2048x768_S1024x768_1_0_0_1_n_n.contr.Idx) :
    (dot_S1024x2048_S2048x768_S1024x768_1_0_0_1_n_n.rhsIdx i q 0).val = (q ⟨0, by decide⟩).val :=
  dot_S1024x2048_S2048x768_S1024x768_1_0_0_1_n_n.rhsIdx_val_of_single rfl i q
theorem rhsA_1 (i : S1024x768.Idx) (q : dot_S1024x2048_S2048x768_S1024x768_1_0_0_1_n_n.contr.Idx) :
    (dot_S1024x2048_S2048x768_S1024x768_1_0_0_1_n_n.rhsIdx i q 1).val = (i 1).val := by
  unfold DotDims.rhsIdx
  rw [dif_neg (show ¬(1 : Fin S2048x768.rank) ∈ dot_S1024x2048_S2048x768_S1024x768_1_0_0_1_n_n.rhsBatch by decide), dif_pos (show (1 : Fin S2048x768.rank) ∈ dot_S1024x2048_S2048x768_S1024x768_1_0_0_1_n_n.rhsNonContracting by decide)]
  rfl

theorem lhsB_0 (i : S1024x2048.Idx) (q : dot_S1024x768_S768x2048_S1024x2048_1_0_0_1_n_n.contr.Idx) :
    (dot_S1024x768_S768x2048_S1024x2048_1_0_0_1_n_n.lhsIdx i q 0).val = (i 0).val := by
  unfold DotDims.lhsIdx
  rw [dif_neg (show ¬(0 : Fin S1024x768.rank) ∈ dot_S1024x768_S768x2048_S1024x2048_1_0_0_1_n_n.lhsBatch by decide), dif_pos (show (0 : Fin S1024x768.rank) ∈ dot_S1024x768_S768x2048_S1024x2048_1_0_0_1_n_n.lhsNonContracting by decide)]
  rfl
theorem lhsB_1 (i : S1024x2048.Idx) (q : dot_S1024x768_S768x2048_S1024x2048_1_0_0_1_n_n.contr.Idx) :
    (dot_S1024x768_S768x2048_S1024x2048_1_0_0_1_n_n.lhsIdx i q 1).val = (q ⟨0, by decide⟩).val :=
  dot_S1024x768_S768x2048_S1024x2048_1_0_0_1_n_n.lhsIdx_val_of_single rfl i q
theorem rhsB_0 (i : S1024x2048.Idx) (q : dot_S1024x768_S768x2048_S1024x2048_1_0_0_1_n_n.contr.Idx) :
    (dot_S1024x768_S768x2048_S1024x2048_1_0_0_1_n_n.rhsIdx i q 0).val = (q ⟨0, by decide⟩).val :=
  dot_S1024x768_S768x2048_S1024x2048_1_0_0_1_n_n.rhsIdx_val_of_single rfl i q
theorem rhsB_1 (i : S1024x2048.Idx) (q : dot_S1024x768_S768x2048_S1024x2048_1_0_0_1_n_n.contr.Idx) :
    (dot_S1024x768_S768x2048_S1024x2048_1_0_0_1_n_n.rhsIdx i q 1).val = (i 1).val := by
  unfold DotDims.rhsIdx
  rw [dif_neg (show ¬(1 : Fin S768x2048.rank) ∈ dot_S1024x768_S768x2048_S1024x2048_1_0_0_1_n_n.rhsBatch by decide), dif_pos (show (1 : Fin S768x2048.rank) ∈ dot_S1024x768_S768x2048_S1024x2048_1_0_0_1_n_n.rhsNonContracting by decide)]
  rfl

/-! ## The projections of a block -/

/-- A block of 1024 rows times a 2048 × 768 matrix, accumulated into zero, at (p, k): row p of the block against
    column k of the matrix. -/
theorem proj_apply (x0 : FVec Ideal S1024x2048 .f32) (w : FVec Ideal S2048x768 .f32) (p : Fin 1024) (k : Fin 768) :
    matmul dot_S1024x2048_S2048x768_S1024x768_1_0_0_1_n_n none x0 w (constant (F := Ideal) S1024x768 .f32 0x00000000#32) (ix2 p k)
      = proj (fun j => x0 (ix2 p j)) w k := by
  refine (Ideal.matmul_constant_zero_apply dot_S1024x2048_S2048x768_S1024x768_1_0_0_1_n_n none x0 w (ix2 p k)).trans ?_
  rw [← Equiv.sum_comp (contrEquiv1 dot_S1024x2048_S2048x768_S1024x768_1_0_0_1_n_n 2048 rfl rfl).symm]
  unfold proj
  refine Finset.sum_congr rfl fun j _ => ?_
  have hk := contrEquiv1_symm_val dot_S1024x2048_S2048x768_S1024x768_1_0_0_1_n_n 2048 rfl rfl j
  have el : dot_S1024x2048_S2048x768_S1024x768_1_0_0_1_n_n.lhsIdx (ix2 p k) ((contrEquiv1 dot_S1024x2048_S2048x768_S1024x768_1_0_0_1_n_n 2048 rfl rfl).symm j) = ix2 p j := funext fun a => Fin.ext (by
    match a with
    | ⟨0, _⟩ => exact lhsA_0 _ _
    | ⟨1, _⟩ => exact (lhsA_1 _ _).trans hk)
  have er : dot_S1024x2048_S2048x768_S1024x768_1_0_0_1_n_n.rhsIdx (ix2 p k) ((contrEquiv1 dot_S1024x2048_S2048x768_S1024x768_1_0_0_1_n_n 2048 rfl rfl).symm j) = ix2 j k := funext fun a => Fin.ext (by
    match a with
    | ⟨0, _⟩ => exact (rhsA_0 _ _).trans hk
    | ⟨1, _⟩ => exact rhsA_1 _ _)
  rw [el, er]

/-! ## The body's result -/

/-- Entry (p, q) of the body's stored value is the row map of row p of the x block at column q. -/
theorem pay_apply (v0 : Vec Ideal S1024x2048 .f32) (v1 v3 : Vec Ideal S2048x768 .f32) (v8 : Vec Ideal S768x2048 .f32)
    (p : Fin 1024) (q : Fin 2048) :
    k0_pay1 v0 v1 v3 v8 (ix2 p q) = outRow (fun j => v0 (ix2 p j)) v1 v3 v8 q := by
  unfold k0_pay1
  refine (Ideal.matmul_constant_zero_apply dot_S1024x768_S768x2048_S1024x2048_1_0_0_1_n_n none _ v8 (ix2 p q)).trans ?_
  rw [← Equiv.sum_comp (contrEquiv1 dot_S1024x768_S768x2048_S1024x2048_1_0_0_1_n_n 768 rfl rfl).symm]
  unfold outRow
  refine Finset.sum_congr rfl fun k _ => ?_
  have hk := contrEquiv1_symm_val dot_S1024x768_S768x2048_S1024x2048_1_0_0_1_n_n 768 rfl rfl k
  have el : dot_S1024x768_S768x2048_S1024x2048_1_0_0_1_n_n.lhsIdx (ix2 p q) ((contrEquiv1 dot_S1024x768_S768x2048_S1024x2048_1_0_0_1_n_n 768 rfl rfl).symm k) = ix2 p k := funext fun a => Fin.ext (by
    match a with
    | ⟨0, _⟩ => exact lhsB_0 _ _
    | ⟨1, _⟩ => exact (lhsB_1 _ _).trans hk)
  have er : dot_S1024x768_S768x2048_S1024x2048_1_0_0_1_n_n.rhsIdx (ix2 p q) ((contrEquiv1 dot_S1024x768_S768x2048_S1024x2048_1_0_0_1_n_n 768 rfl rfl).symm k) = ix2 k q := funext fun a => Fin.ext (by
    match a with
    | ⟨0, _⟩ => exact (rhsB_0 _ _).trans hk
    | ⟨1, _⟩ => exact rhsB_1 _ _)
  rw [el, er]
  refine congrArg (· * v8 (ix2 k q)) ?_
  show matmul dot_S1024x2048_S2048x768_S1024x768_1_0_0_1_n_n none v0 v1 (constant (F := Ideal) S1024x768 .f32 0x00000000#32) (ix2 p k)
      * Ideal.logistic (matmul dot_S1024x2048_S2048x768_S1024x768_1_0_0_1_n_n none v0 v1 (constant (F := Ideal) S1024x768 .f32 0x00000000#32) (ix2 p k))
      * matmul dot_S1024x2048_S2048x768_S1024x768_1_0_0_1_n_n none v0 v3 (constant (F := Ideal) S1024x768 .f32 0x00000000#32) (ix2 p k) = _
  rw [proj_apply, proj_apply]
  rfl

end Cert.KernelIdeal.Block

end
-- ==== Proof.KernelIsMlp.lean ====
/-
  From the kernel's blocks to its result array.

  The grid has 32 points. At point t the pipeline hands the body rows 1024·t … 1024·t + 1023 of x and the three weight
  matrices whole, and writes the body's result back to the same rows of the output. The body's result at (p, q) is the
  row map of row p of its x block at column q, and row p of that block is row 1024·t + p of x: so what point t writes
  back is the block of rows 1024·t … of the gated feed-forward map of the whole arrays. Row r of the output lies in the
  block of point r / 1024, so the 32 blocks cover the output, which therefore ends holding that map.
-/
import proofs.«113107_g47691316855583_cont_8to1_c_567_17_alg».proof.Proof.Gen.KernelIdeal.Value
import proofs.«113107_g47691316855583_cont_8to1_c_567_17_alg».proof.Proof.BlockMlp
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.KernelIdeal.Block Cert.RowMlp

variable (m : (ℓ : Loc nD τ sig) → Buf (Elt Ideal) ℓ) (ρ : Dev nD → PrngReg)

theorem hz : (![0, 0] : Fin 2 → Nat) = fun _ => 0 := funext fun a => by fin_cases a <;> rfl

/-- The block index of every window at every grid point: the x window and the output window are at block row t, the
    weight windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry (p, j) of the x block at point t is entry (1024·t + p, j) of x. -/
theorem xblk_apply (c : Dev nD) (t : Fin cfg0.N) (y : S1024x2048.Idx) (k : S32768x2048.Idx)
    (hk0 : (k 0).val = t.val * 1024 + (y 0).val) (hk1 : (k 1).val = (y 1).val) :
    (iblk m c 0 t : Vec Ideal S1024x2048 .f32) y = V m c main_arg0 k := by
  obtain ⟨e0, e1, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 2) * 1024 + 1 * (y 0).val = (k 0).val; rw [e0, hk0]; omega
  | ⟨1, _⟩ => show win0_0.index t (1 : Fin 2) * 2048 + 1 * (y 1).val = (k 1).val; rw [e1, hk1]; omega

/-- The gate matrix's block at every point is the whole matrix. -/
theorem gblk_eq (c : Dev nD) (t : Fin cfg0.N) : (iblk m c 1 t : Vec Ideal S2048x768 .f32) = V m c main_arg1 := by
  obtain ⟨-, -, e0, e1, -⟩ := idx_facts t
  funext y
  unfold iblk
  rw [View.read_apply]
  show V m c main_arg1 _ = V m c main_arg1 y
  refine congrArg (V m c main_arg1) ?_
  funext a
  apply Fin.ext
  match a with
  | ⟨0, _⟩ => show win0_1.index t (0 : Fin 2) * 2048 + 1 * (y 0).val = (y 0).val; rw [e0]; omega
  | ⟨1, _⟩ => show win0_1.index t (1 : Fin 2) * 768 + 1 * (y 1).val = (y 1).val; rw [e1]; omega

/-- The up matrix's block at every point is the whole matrix. -/
theorem ublk_eq (c : Dev nD) (t : Fin cfg0.N) : (iblk m c 2 t : Vec Ideal S2048x768 .f32) = V m c main_arg2 := by
  obtain ⟨-, -, -, -, e0, e1, -⟩ := idx_facts t
  funext y
  unfold iblk
  rw [View.read_apply]
  show V m c main_arg2 _ = V m c main_arg2 y
  refine congrArg (V m c main_arg2) ?_
  funext a
  apply Fin.ext
  match a with
  | ⟨0, _⟩ => show win0_2.index t (0 : Fin 2) * 2048 + 1 * (y 0).val = (y 0).val; rw [e0]; omega
  | ⟨1, _⟩ => show win0_2.index t (1 : Fin 2) * 768 + 1 * (y 1).val = (y 1).val; rw [e1]; omega

/-- The down matrix's block at every point is the whole matrix. -/
theorem dblk_eq (c : Dev nD) (t : Fin cfg0.N) : (iblk m c 3 t : Vec Ideal S768x2048 .f32) = V m c main_arg3 := by
  obtain ⟨-, -, -, -, -, -, e0, e1, -⟩ := idx_facts t
  funext y
  unfold iblk
  rw [View.read_apply]
  show V m c main_arg3 _ = V m c main_arg3 y
  refine congrArg (V m c main_arg3) ?_
  funext a
  apply Fin.ext
  match a with
  | ⟨0, _⟩ => show win0_3.index t (0 : Fin 2) * 768 + 1 * (y 0).val = (y 0).val; rw [e0]; omega
  | ⟨1, _⟩ => show win0_3.index t (1 : Fin 2) * 2048 + 1 * (y 1).val = (y 1).val; rw [e1]; omega

/-- The gated feed-forward map of the four argument arrays as the region finds them. -/
abbrev target (c : Dev nD) : S32768x2048.Idx → Elt Ideal .f32 :=
  mlp (V m c main_arg0) (V m c main_arg1) (V m c main_arg2) (V m c main_arg3)

/-- What point t writes back is block t of the map of the whole arrays. -/
theorem flushed_eq (c : Dev nD) (t : Fin cfg0.N) :
    (dats m 0 c).flushed 4 t = ((cfg0.win 4).blk t).view.read (Elt Ideal) (target m c) := by
  obtain ⟨-, -, -, -, -, -, -, -, e0, e1⟩ := idx_facts t
  have ht : t.val < 32 := lt_of_lt_of_eq t.isLt (N_0 : cfg0.N = 32)
  show (cfg0.win 4).cut (grid0.coords t) ((dats m 0 c).after 4 t) = _
  rw [after0_4]
  unfold out0_4
  rw [View.canon_unit_zero hz]
  simp only [View.ld_unit_zero (S := S1024x2048) hz, View.ld_unit_zero (S := S2048x768) hz, View.ld_unit_zero (S := S768x2048) hz]
  funext y
  obtain ⟨p, q, rfl⟩ : ∃ (p : Fin 1024) (q : Fin 2048), y = ix2 p q := ⟨y 0, y 1, eq_ix2 y⟩
  show k0_pay1 (iblk m c 0 t) (iblk m c 1 t) (iblk m c 2 t) (iblk m c 3 t) (ix2 p q)
      = target m c (((cfg0.win 4).blk t).view.emb (ix2 p q))
  refine (pay_apply _ _ _ _ p q).trans ?_
  have hemb : ((cfg0.win 4).blk t).view.emb (ix2 p q)
      = (ix2 (⟨t.val * 1024 + p.val, by omega⟩ : Fin 32768) q : S32768x2048.Idx) := by
    funext a
    apply Fin.ext
    match a with
    | ⟨0, _⟩ => show win0_4.index t (0 : Fin 2) * 1024 + 1 * p.val = t.val * 1024 + p.val; rw [e0]; omega
    | ⟨1, _⟩ => show win0_4.index t (1 : Fin 2) * 2048 + 1 * q.val = q.val; rw [e1]; omega
  rw [hemb]
  show _ = outRow (fun j => V m c main_arg0 (ix2 (⟨t.val * 1024 + p.val, by omega⟩ : Fin 32768) j))
      (V m c main_arg1) (V m c main_arg2) (V m c main_arg3) q
  exact outRow_congr (fun j => xblk_apply m c t (ix2 p j) (ix2 (⟨t.val * 1024 + p.val, by omega⟩ : Fin 32768) j) rfl rfl)
    (gblk_eq m c t) (ublk_eq m c t) (dblk_eq m c t) rfl

/-- An index of the output is in point t's block iff each coordinate is in the block's range on its axis. -/
theorem mem_blk (t : Fin cfg0.N) (i : S32768x2048.Idx) :
    i ∈ ((cfg0.win 4).blk t).view.set ↔ ∀ a : Fin 2, win0_4.index t a * S1024x2048.size a ≤ (i a).val ∧ (i a).val < win0_4.index t a * S1024x2048.size a + S1024x2048.size a := by
  show i ∈ ((View.whole main_v0).slice (win0_4.rect t)).set ↔ _
  rw [View.set_slice_whole, Rect.mem_set_unit]
  exact Iff.rfl

/-- Every block row of the output is some point's. -/
theorem idx_onto : ∀ q0 : Fin 32, ∃ t : Fin cfg0.N, win0_4.index t = ![q0.val, 0] :=
  (by decide +kernel : ∀ q0 : Fin 32, ∃ t : Fin grid0.N, win0_4.index t = ![q0.val, 0])

/-- Every index of the output lies in the block of the point that holds its row. -/
theorem cover (i : S32768x2048.Idx) : ∃ t : Fin cfg0.N, (cfg0.win 4).flush t = true ∧ i ∈ ((cfg0.win 4).blk t).view.set := by
  have hi0 : (i 0).val < 32768 := (i 0).isLt
  have hi1 : (i 1).val < 2048 := (i 1).isLt
  obtain ⟨t, ht⟩ := idx_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 2048 ≤ (i 1).val ∧ (i 1).val < win0_4.index t (1 : Fin 2) * 2048 + 2048; omega

/-- The output array after the run is the gated feed-forward map of the argument arrays. -/
theorem final (c : Dev nD) : (dats m 0 c).arrAt 4 cfg0.N
    = mlp (m ((c : Thread nD τ).loc main_arg0)) (m ((c : Thread nD τ).loc main_arg1))
        (m ((c : Thread nD τ).loc main_arg2)) (m ((c : Thread nD τ).loc main_arg3)) :=
  (dats m 0 c).arrAt_eq_of_cover 4 (target m c) (fun t _ => flushed_eq m c t) cover

/-- The run, read: the result array at the map of the arguments, the arguments unchanged. -/
theorem run : θ_run defs (onTc (τ := τ) (main (F := Ideal))) ⟨m, fun _ => 0, ρ⟩ fun r => ∀ c : Dev nD,
      r.2.mem ((c : Thread nD τ).loc main_v0)
        = mlp (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.ReferenceIsMlp.lean ====
/-
  The reference program's result, read at an index, is the gated feed-forward map of the argument arrays.

  The reference forms the gate and up projections of the whole array by two matrix products, multiplies the gate by
  1 / (1 + e^(-gate)) — the logistic function spelt with a negation, an exponential, a sum and a quotient — and by
  the up projection, and takes the product of that with the down matrix. Entry (r, k) of either projection is the sum
  over j of x (r, j) · w (j, k), a function of row r of x alone; so entry (r, c) of the result is the row map of row r
  at column c.
-/
import proofs.«113107_g47691316855583_cont_8to1_c_567_17_alg».proof.Proof.Gen.ReferenceIdeal.Read
import proofs.«113107_g47691316855583_cont_8to1_c_567_17_alg».proof.Proof.RowMlp

noncomputable section

open scoped BigOperators
open Idealize.ShloMosaic Idealize.ShloMosaic.TcCoe Idealize.ShloMosaic.ValueIdx

namespace Cert.ReferenceIdeal.RefValue

open Cert.ReferenceIdeal Cert.ReferenceIdeal.Read Cert.RowMlp

/-- The gate projection at (r, k): row r of x against column k of the gate matrix. -/
theorem gate_apply (x0 : (⟨S32768x2048, .f32⟩ : BufTy).Contents (Elt Ideal)) (x1 : (⟨S2048x768, .f32⟩ : BufTy).Contents (Elt Ideal))
    (r : Fin 32768) (k : Fin 768) :
    val_main_v0 (F := Ideal) x0 x1 (ix2 r k) = proj (fun j => x0 (ix2 r j)) x1 k := by
  rw [val_main_v0_apply]
  unfold proj
  refine Finset.sum_congr rfl fun j _ => ?_
  have el : lidx_main_v0 (ix2 r k) j = ix2 r j := funext fun a => Fin.ext (by
    match a with
    | ⟨0, _⟩ => rfl
    | ⟨1, _⟩ => rfl)
  have er : ridx_main_v0 (ix2 r k) j = ix2 j k := funext fun a => Fin.ext (by
    match a with
    | ⟨0, _⟩ => rfl
    | ⟨1, _⟩ => rfl)
  rw [el, er]

/-- The up projection at (r, k): row r of x against column k of the up matrix. -/
theorem up_apply (x0 : (⟨S32768x2048, .f32⟩ : BufTy).Contents (Elt Ideal)) (x2 : (⟨S2048x768, .f32⟩ : BufTy).Contents (Elt Ideal))
    (r : Fin 32768) (k : Fin 768) :
    val_main_v1 (F := Ideal) x0 x2 (ix2 r k) = proj (fun j => x0 (ix2 r j)) x2 k := by
  rw [val_main_v1_apply]
  unfold proj
  refine Finset.sum_congr rfl fun j _ => ?_
  have el : lidx_main_v1 (ix2 r k) j = ix2 r j := funext fun a => Fin.ext (by
    match a with
    | ⟨0, _⟩ => rfl
    | ⟨1, _⟩ => rfl)
  have er : ridx_main_v1 (ix2 r k) j = ix2 j k := funext fun a => Fin.ext (by
    match a with
    | ⟨0, _⟩ => rfl
    | ⟨1, _⟩ => rfl)
  rw [el, er]

/-- The hidden activation at (r, k): gate · (1 / (1 + e^(-gate))) · up, the quotient being the logistic function. -/
theorem hidden_apply (x0 : (⟨S32768x2048, .f32⟩ : BufTy).Contents (Elt Ideal)) (x1 x2 : (⟨S2048x768, .f32⟩ : BufTy).Contents (Elt Ideal))
    (r : Fin 32768) (k : Fin 768) :
    val_main_v3 (F := Ideal) x0 x1 x2 (ix2 r k) = hidden (fun j => x0 (ix2 r j)) x1 x2 k := by
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, gate_apply, up_apply]
  simp only [Ideal.mulf_def, Ideal.hostDivf_def, Ideal.addf_def, Ideal.hostUnary_exp_def, Ideal.hostNegf_def, Ideal.negf_def,
    Ideal.ofBits_def, one_f32, logistic_spelt]
  rfl

/-- The reference's result is the gated feed-forward map of its four arguments. -/
theorem result_eq (x0 : (⟨S32768x2048, .f32⟩ : BufTy).Contents (Elt Ideal)) (x1 x2 : (⟨S2048x768, .f32⟩ : BufTy).Contents (Elt Ideal))
    (x3 : (⟨S768x2048, .f32⟩ : BufTy).Contents (Elt Ideal)) :
    val_main_v4 (F := Ideal) x0 x1 x2 x3 = mlp x0 x1 x2 x3 := by
  funext i
  obtain ⟨r, c, rfl⟩ : ∃ (r : Fin 32768) (c : Fin 2048), i = ix2 r c := ⟨i 0, i 1, eq_ix2 i⟩
  rw [val_main_v4_apply, mlp_ix2]
  unfold outRow
  refine Finset.sum_congr rfl fun k _ => ?_
  have el : lidx_main_v4 (ix2 r c) k = ix2 r k := funext fun a => Fin.ext (by
    match a with
    | ⟨0, _⟩ => rfl
    | ⟨1, _⟩ => rfl)
  have er : ridx_main_v4 (ix2 r c) k = ix2 k c := funext fun a => Fin.ext (by
    match a with
    | ⟨0, _⟩ => rfl
    | ⟨1, _⟩ => rfl)
  rw [el, er, hidden_apply]

end Cert.ReferenceIdeal.RefValue

end
-- ==== Proof.lean ====
/-
  The kernel computes the gated feed-forward map  out = (g · σ(g) · u) · W_down,  g = x · W_gate,  u = x · W_up,
  σ the logistic function, on a [32768, 2048] array x, walking 32 blocks of 1024 rows with the three weight matrices
  resident; the reference computes the same map with three whole matrix products and σ spelt as 1 / (1 + e^(-g)).

  Over the extended reals the two agree index by index, with no condition on the inputs: a matrix product read at an
  index is the sum over the contracted coordinate of the operands' products (the kernel's accumulator starts at zero),
  the logistic function is by definition that quotient, and entry (r, c) of the result is a function of row r of x and
  of the weights alone (Proof/RowMlp.lean) — so the block of rows a grid point writes back is the same rows of the
  whole map (Proof/BlockMlp.lean, Proof/KernelIsMlp.lean), the 32 blocks cover the output, and the reference's result
  read at (r, c) is the same row map (Proof/ReferenceIsMlp.lean). The idealization rewrote nothing, so the kernel's
  idealized program is its own text read over the extended reals.
-/
import proofs.«113107_g47691316855583_cont_8to1_c_567_17_alg».proof.Defs
import proofs.«113107_g47691316855583_cont_8to1_c_567_17_alg».proof.Proof.Gen.Kernel
import proofs.«113107_g47691316855583_cont_8to1_c_567_17_alg».proof.Proof.Gen.Kernel.Frame
import proofs.«113107_g47691316855583_cont_8to1_c_567_17_alg».proof.Proof.Gen.KernelIdeal
import proofs.«113107_g47691316855583_cont_8to1_c_567_17_alg».proof.Proof.Gen.KernelIdeal.Frame
import proofs.«113107_g47691316855583_cont_8to1_c_567_17_alg».proof.Proof.Gen.KernelIdeal.Value
import proofs.«113107_g47691316855583_cont_8to1_c_567_17_alg».proof.Proof.Gen.ReferenceIdeal
import proofs.«113107_g47691316855583_cont_8to1_c_567_17_alg».proof.Proof.Gen.ReferenceIdeal.Run
import proofs.«113107_g47691316855583_cont_8to1_c_567_17_alg».proof.Proof.Gen.ReferenceIdeal.Read
import proofs.«113107_g47691316855583_cont_8to1_c_567_17_alg».proof.Proof.Gen.Pre_finite_inputs
import proofs.«113107_g47691316855583_cont_8to1_c_567_17_alg».proof.Proof.KernelIsMlp
import proofs.«113107_g47691316855583_cont_8to1_c_567_17_alg».proof.Proof.ReferenceIsMlp
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the gated feed-forward map of those arguments
    in their result arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
